-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x256 : Shape := ⟨2, ![128, 256]⟩
abbrev S128 : Shape := ⟨1, ![128]⟩
abbrev S384x256 : Shape := ⟨2, ![384, 256]⟩
abbrev S384x128 : Shape := ⟨2, ![384, 128]⟩
abbrev S384 : Shape := ⟨1, ![384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S384x256 : S_.BroadcastsInDim S384x256 (![] : Fin 0 → Fin S384x256.rank)
  reducesTo_S384x256_S_d0_1 : S384x256.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg9 : FVec F S384 .f32) (main_v33 : IVec S_ 1) : IVec S_ 1 :=
  let main_v34 : FVec F S384 .f32 := Host.absf main_arg9
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  main_v38

def fn_part1 {F : FTy → Type} [FloatOps F] (main_arg6 : FVec F S384x256 .f32) (main_arg7 : FVec F S384x128 .f32) (main_arg8 : FVec F S384 .f32) (main_arg9 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x256 .f32 := Host.absf main_arg6
  let main_cst_6 : FVec F S_ .f32 := constant S_ .f32 0x7F800000#32
  let main_v20 : FVec F S384x256 .f32 := broadcastInDim S384x256 ![] bcast_S_S384x256 main_cst_6
  let main_v21 : IVec S384x256 1 := cmpf .olt main_v19 main_v20
  let main_c_7 : IVec S_ 1 := constantI S_ 1 1#1
  let main_v22 : IVec S_ 1 := (fun x v => Host.reduce IntOp.andi x v reducesTo_S384x256_S_d0_1 h_S_) main_v21 main_c_7
  let main_v23 : IVec S_ 1 := andi main_v18 main_v22
  let main_v24 : FVec F S384x128 .f32 := Host.absf main_arg7
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg8
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg9 main_v33

def fn {F : FTy → Type} [FloatOps F] (main_arg0 : FVec F S50000x128 .f32) (main_arg1 : FVec F S50000x128 .f32) (main_arg2 : IVec S800000 32) (main_arg3 : IVec S800000 32) (main_arg4 : FVec F S128x256 .f32) (main_arg5 : FVec F S128 .f32) (main_arg6 : FVec F S384x256 .f32) (main_arg7 : FVec F S384x128 .f32) (main_arg8 : FVec F S384 .f32) (main_arg9 : FVec F S384 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x128 : Shape := ⟨2, ![50000, 128]⟩
abbrev S800000 : Shape := ⟨1, ![800000]⟩
abbrev S128x256 : Shape := ⟨2, ![128, 256]⟩
abbrev S128 : Shape := ⟨1, ![128]⟩
abbrev S384x256 : Shape := ⟨2, ![384, 256]⟩
abbrev S384x128 : Shape := ⟨2, ![384, 128]⟩
abbrev S384 : Shape := ⟨1, ![384]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S256x128 : Shape := ⟨2, ![256, 128]⟩
abbrev S1x128 : Shape := ⟨2, ![1, 128]⟩
abbrev S4000x256 : Shape := ⟨2, ![4000, 256]⟩
abbrev S4000x128 : Shape := ⟨2, ![4000, 128]⟩
abbrev S50000 : Shape := ⟨1, ![50000]⟩
abbrev S50000x1 : Shape := ⟨2, ![50000, 1]⟩
abbrev S256x384 : Shape := ⟨2, ![256, 384]⟩
abbrev S128x384 : Shape := ⟨2, ![128, 384]⟩
abbrev S1x384 : Shape := ⟨2, ![1, 384]⟩
abbrev S1000x128 : Shape := ⟨2, ![1000, 128]⟩
abbrev S1000x256 : Shape := ⟨2, ![1000, 256]⟩
abbrev S1000x384 : Shape := ⟨2, ![1000, 384]⟩

abbrev nBuf : Space → Nat
  | .hbm => 53
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000, .i32⟩
  | .hbm, ⟨3, _⟩ => ⟨S800000, .i32⟩
  | .hbm, ⟨4, _⟩ => ⟨S128x256, .f32⟩
  | .hbm, ⟨5, _⟩ => ⟨S128, .f32⟩
  | .hbm, ⟨6, _⟩ => ⟨S384x256, .f32⟩
  | .hbm, ⟨7, _⟩ => ⟨S384x128, .f32⟩
  | .hbm, ⟨8, _⟩ => ⟨S384, .f32⟩
  | .hbm, ⟨9, _⟩ => ⟨S384, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S800000x256, .f32⟩
  | .hbm, ⟨29, _⟩ => ⟨S256x128, .f32⟩
  | .hbm, ⟨30, _⟩ => ⟨S1x128, .f32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S_, .f32⟩
  | .hbm, ⟨37, _⟩ => ⟨S800000, .f32⟩
  | .hbm, ⟨38, _⟩ => ⟨S_, .f32⟩
  | .hbm, ⟨39, _⟩ => ⟨S50000, .f32⟩
  | .hbm, ⟨40, _⟩ => ⟨S800000x1, .i32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S256x384, .f32⟩
  | .hbm, ⟨49, _⟩ => ⟨S128x384, .f32⟩
  | .hbm, ⟨50, _⟩ => ⟨S1x384, .f32⟩
  | .hbm, ⟨51, _⟩ => ⟨S1x384, .f32⟩
  | .hbm, ⟨52, _⟩ => ⟨S50000x128, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S256x384, .f32⟩
  | .local _ .vmem, ⟨13, _⟩ => ⟨S128x384, .f32⟩
  | .local _ .vmem, ⟨14, _⟩ => ⟨S1x384, .f32⟩
  | .local _ .vmem, ⟨15, _⟩ => ⟨S1x384, .f32⟩
  | .local _ .vmem, ⟨16, _⟩ => ⟨S1000x128, .f32⟩
  | .local _ .vmem, ⟨17, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  transposes_S128x256_S256x128_1_0 : S128x256.Transposes [1, 0] S256x128
  shapeCasts_S128_S1x128 : S128.ShapeCasts S1x128
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S384x256_S256x384_1_0 : S384x256.Transposes [1, 0] S256x384
  transposes_S384x128_S128x384_1_0 : S384x128.Transposes [1, 0] S128x384
  shapeCasts_S384_S1x384 : S384.ShapeCasts S1x384
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  concatenates_S1000x128_S1000x128_S1000x256_d1 : Shape.Concatenates [S1000x128, S1000x128] S1000x256 1
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1000x384 : S1x384.Broadcasts S1000x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  gather_S50000x128_S800000x1_S800000x128_1_0_n_n_0_1_1128_wf : GatherDims.WF S50000x128 S800000x1 S800000x128 [1] [0] [] [0] [] 1 ![1, 128]
  dot_S4000x256_S256x128_S4000x128_1_0_0_1_n_n_wf : DotDims.WF S4000x256 S256x128 S4000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S1000x256_S256x384_S1000x384_1_0_0_1_n_n_wf : DotDims.WF S1000x256 S256x384 S1000x384 [1] [0] [0] [1] [] []
  dot_S1000x128_S128x384_S1000x384_1_0_0_1_n_n_wf : DotDims.WF S1000x128 S128x384 S1000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S800000x256.size a
  hwx0_0 : ∀ i : grid0.Coords, EltTy.bits .f32 = 32 ∨ (Rect.block (s := S800000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S800000x128.size a
  hwx0_3 : ∀ i : grid0.Coords, EltTy.bits .f32 = 32 ∨ (Rect.block (s := S800000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S50000x128.size a
  hwx1_2 : ∀ i : grid1.Coords, EltTy.bits .f32 = 32 ∨ (Rect.block (s := S50000x128) S1000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x384.size a ≤ S256x384.size a
  hwx1_3 : ∀ i : grid1.Coords, EltTy.bits .f32 = 32 ∨ (Rect.block (s := S256x384) S256x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x384.size a ≤ S128x384.size a
  hwx1_4 : ∀ i : grid1.Coords, EltTy.bits .f32 = 32 ∨ (Rect.block (s := S128x384) S128x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x384.size a ≤ S1x384.size a
  hwx1_6 : ∀ i : grid1.Coords, EltTy.bits .f32 = 32 ∨ (Rect.block (s := S1x384) S1x384.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x128.size a ≤ S50000x128.size a
  hwx1_7 : ∀ i : grid1.Coords, EltTy.bits .f32 = 32 ∨ (Rect.block (s := S50000x128) S1000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x256_S256x384_S1000x384_1_0_0_1_n_n : DotDims S1000x256 S256x384 S1000x384 where
  lhsContracting := [1]
  rhsContracting := [0]
  lhsNonContracting := [0]
  rhsNonContracting := [1]
  lhsBatch := []
  rhsBatch := []
  wf := dot_S1000x256_S256x384_S1000x384_1_0_0_1_n_n_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf

abbrev win0_0 : Pipeline.Window sig grid0 :=
  Pipeline.Window.ofSpec (Memref.whole main_v14) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S256x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S128x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S1000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x256 : Shape := ⟨2, ![128, 256]⟩
abbrev S128 : Shape := ⟨1, ![128]⟩
abbrev S384x256 : Shape := ⟨2, ![384, 256]⟩
abbrev S384x128 : Shape := ⟨2, ![384, 128]⟩
abbrev S384 : Shape := ⟨1, ![384]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S256x128 : Shape := ⟨2, ![256, 128]⟩
abbrev S1x128 : Shape := ⟨2, ![1, 128]⟩
abbrev S50000 : Shape := ⟨1, ![50000]⟩
abbrev S50000x1 : Shape := ⟨2, ![50000, 1]⟩
abbrev S50000x256 : Shape := ⟨2, ![50000, 256]⟩
abbrev S256x384 : Shape := ⟨2, ![256, 384]⟩
abbrev S50000x384 : Shape := ⟨2, ![50000, 384]⟩
abbrev S1x384 : Shape := ⟨2, ![1, 384]⟩
abbrev S128x384 : Shape := ⟨2, ![128, 384]⟩

abbrev nBuf : Space → Nat
  | .hbm => 94
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000, .i32⟩
  | .hbm, ⟨3, _⟩ => ⟨S800000, .i32⟩
  | .hbm, ⟨4, _⟩ => ⟨S128x256, .f32⟩
  | .hbm, ⟨5, _⟩ => ⟨S128, .f32⟩
  | .hbm, ⟨6, _⟩ => ⟨S384x256, .f32⟩
  | .hbm, ⟨7, _⟩ => ⟨S384x128, .f32⟩
  | .hbm, ⟨8, _⟩ => ⟨S384, .f32⟩
  | .hbm, ⟨9, _⟩ => ⟨S384, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S800000x256, .f32⟩
  | .hbm, ⟨29, _⟩ => ⟨S256x128, .f32⟩
  | .hbm, ⟨30, _⟩ => ⟨S800000x128, .f32⟩
  | .hbm, ⟨31, _⟩ => ⟨S1x128, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S_, .f32⟩
  | .hbm, ⟨39, _⟩ => ⟨S800000, .f32⟩
  | .hbm, ⟨40, _⟩ => ⟨S_, .f32⟩
  | .hbm, ⟨41, _⟩ => ⟨S50000, .f32⟩
  | .hbm, ⟨42, _⟩ => ⟨S800000x1, .i32⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S50000x256, .f32⟩
  | .hbm, ⟨51, _⟩ => ⟨S256x384, .f32⟩
  | .hbm, ⟨52, _⟩ => ⟨S50000x384, .f32⟩
  | .hbm, ⟨53, _⟩ => ⟨S1x384, .f32⟩
  | .hbm, ⟨54, _⟩ => ⟨S50000x384, .f32⟩
  | .hbm, ⟨55, _⟩ => ⟨S50000x384, .f32⟩
  | .hbm, ⟨56, _⟩ => ⟨S128x384, .f32⟩
  | .hbm, ⟨57, _⟩ => ⟨S50000x384, .f32⟩
  | .hbm, ⟨58, _⟩ => ⟨S1x384, .f32⟩
  | .hbm, ⟨59, _⟩ => ⟨S50000x384, .f32⟩
  | .hbm, ⟨60, _⟩ => ⟨S50000x384, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  transposes_S128x256_S256x128_1_0 : S128x256.Transposes [1, 0] S256x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  transposes_S384x256_S256x384_1_0 : S384x256.Transposes [1, 0] S256x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  transposes_S384x128_S128x384_1_0 : S384x128.Transposes [1, 0] S128x384
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x384_S50000x384_1_0_0_1_n_n_wf : DotDims.WF S50000x256 S256x384 S50000x384 [1] [0] [0] [1] [] []
  dot_S50000x128_S128x384_S50000x384_1_0_0_1_n_n_wf : DotDims.WF S50000x128 S128x384 S50000x384 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x384_S50000x384_1_0_0_1_n_n : DotDims S50000x256 S256x384 S50000x384 where
  lhsContracting := [1]
  rhsContracting := [0]
  lhsNonContracting := [0]
  rhsNonContracting := [1]
  lhsBatch := []
  rhsBatch := []
  wf := dot_S50000x256_S256x384_S50000x384_1_0_0_1_n_n_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf

class Facts : Prop extends Facts₀ where

variable [Facts]
-- ==== Proof.KernelRun.lean ====
/-
  The idealized kernel's run, with its result named.

  @main is four segments: the host operations that gather and join the edge features, the message region, the host
  operations that average the messages over each node's incoming edges, and the node-update region. Folding the
  segments from the launch memory gives the contents of every buffer at the return; the result buffer is the last
  region's output array, so after the run it holds what that region's write-backs leave, and every argument holds
  what it held at launch.
-/
import proofs.«125218_j29214367547980_1_alg».proof.Proof.Gen.KernelIdeal.Frame

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents of it, and the arguments end as launched. -/
theorem run_named : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

/-- The result buffer's last contents are what the node-update region's write-backs leave in its output array. -/
theorem result_eq (c : Dev nD) :
    W4 m ρ c (Proc.devRef .tc main_v34) = (dat1 (V3 m ρ) c).arrAt 7 cfg1.N :=
  W4_arr m ρ c 7

end Cert.KernelRun

end
-- ==== Proof.HostStages.lean ====
/-
  The host operations around the two regions, read as functions of the buffers they start from.

  Before the message region: the edge features (each edge's source row of `x` joined with its source row of `h`), the
  message weights transposed, and the bias as a one-row matrix. Between the regions: the messages summed into their
  destination nodes and divided by the number of incoming edges (at least one), the two update weight matrices transposed
  and the two update biases as one-row matrices. The gather, the scatter-add and the division are the same operations in
  the reference, so those stages are identified with the reference's stages of the same arguments and never opened; only the
  one-row biases differ in spelling (a reshape here, a broadcast along a new leading axis there) and are compared entry by entry.
-/
import proofs.«125218_j29214367547980_1_alg».proof.Proof.Gen.KernelIdeal.Frame
import proofs.«125218_j29214367547980_1_alg».proof.Proof.Gen.ReferenceIdeal.Read
import Idealize.ShloMosaic.Lib.ValueLayout
import Idealize.ShloMosaic.Lib.StableHlo.Run

set_option maxRecDepth 16384
set_option maxHeartbeats 1000000

noncomputable section

namespace Cert.HostStages

open Idealize.ShloMosaic Idealize.ShloMosaic.TcCoe Idealize.SL.Sem Idealize.ShloMosaic.StableHlo
open Idealize.ShloMosaic.ValueIdx
open Cert.KernelIdeal Cert.KernelIdeal.Gen
open Cert.ReferenceIdeal.Read

/-- The averaging between the regions as one function of the message array `u` and the destination indices `d`: the
    messages summed into their destination rows, over the count of incoming edges (at least one) of each row. -/
def avg (u : (⟨S800000x128, .f32⟩ : BufTy).Contents (Elt Ideal)) (d : (⟨S800000, .i32⟩ : BufTy).Contents (Elt Ideal)) : (⟨S50000x128, .f32⟩ : BufTy).Contents (Elt Ideal) :=
  Host.divf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 d) u)
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant (F := Ideal) S_ .f32 0x00000000#32))
            (broadcastInDim S800000x1 ![0] bcast_S800000_S800000x1_0 d)
            (broadcastInDim S800000 ![] bcast_S_S800000 (constant (F := Ideal) S_ .f32 0x3F800000#32)))
          (broadcastInDim S50000 ![] bcast_S_S50000 (constant (F := Ideal) S_ .f32 0x3F800000#32)))))

/-- The reference averages its own messages by the same function. -/
theorem ref_avg (x0 x1 : (⟨S50000x128, .f32⟩ : BufTy).Contents (Elt Ideal)) (x2 x3 : (⟨S800000, .i32⟩ : BufTy).Contents (Elt Ideal)) (x4 : (⟨S128x256, .f32⟩ : BufTy).Contents (Elt Ideal)) (x5 : (⟨S128, .f32⟩ : BufTy).Contents (Elt Ideal)) :
    val_main_v31 (F := Ideal) x0 x1 x2 x3 x4 x5 = avg (val_main_v19 (F := Ideal) x0 x1 x2 x4 x5) x3 := by
  unfold val_main_v31 val_main_v22 val_main_v30 val_main_v29 val_main_v28 val_main_v26 val_main_v27 val_main_v20 val_main_v21
    val_main_v23 val_main_v24 val_main_v25 val_main_cst val_main_cst_3 val_main_cst_4 val_main_cst_5 avg
  rfl

section Stretches

variable (Wv : Valuation τ sig (Elt Ideal))

/-! ## Before the message region, from any contents -/

theorem pre_feat : StableHlo.after hostOps0 Wv (Proc.devRef .tc main_v14)
    = val_main_v14 (F := Ideal) (Wv (Proc.devRef .tc main_arg0)) (Wv (Proc.devRef .tc main_arg1)) (Wv (Proc.devRef .tc main_arg2)) := by
  dsimp only [hostOps0]
  after_results_simp
  unfold val_main_v14 val_main_v6 val_main_v13 val_main_v5 val_main_v12 val_main_v4 val_main_v11 val_main_v1 val_main_v3 val_main_v8 val_main_v10 val_main_v0 val_main_v2 val_main_v7 val_main_v9 val_main_c val_main_c_0 val_main_c_1 val_main_c_2
  rfl

theorem pre_wmsg : StableHlo.after hostOps0 Wv (Proc.devRef .tc main_v15) = val_main_v15 (F := Ideal) (Wv (Proc.devRef .tc main_arg4)) := by
  dsimp only [hostOps0]
  after_results_simp
  unfold val_main_v15
  rfl

theorem pre_bmsg : StableHlo.after hostOps0 Wv (Proc.devRef .tc main_v16)
    = shapeCast S1x128 (Wv (Proc.devRef .tc main_arg5)) shapeCasts_S128_S1x128 := by
  dsimp only [hostOps0]
  after_results_simp
  try rfl

theorem pre_arg0 : StableHlo.after hostOps0 Wv (Proc.devRef .tc main_arg0) = Wv (Proc.devRef .tc main_arg0) := by
  dsimp only [hostOps0]
  after_results_simp
  try rfl

theorem pre_arg1 : StableHlo.after hostOps0 Wv (Proc.devRef .tc main_arg1) = Wv (Proc.devRef .tc main_arg1) := by
  dsimp only [hostOps0]
  after_results_simp
  try rfl

theorem pre_arg3 : StableHlo.after hostOps0 Wv (Proc.devRef .tc main_arg3) = Wv (Proc.devRef .tc main_arg3) := by
  dsimp only [hostOps0]
  after_results_simp
  try rfl

theorem pre_arg6 : StableHlo.after hostOps0 Wv (Proc.devRef .tc main_arg6) = Wv (Proc.devRef .tc main_arg6) := by
  dsimp only [hostOps0]
  after_results_simp
  try rfl

theorem pre_arg7 : StableHlo.after hostOps0 Wv (Proc.devRef .tc main_arg7) = Wv (Proc.devRef .tc main_arg7) := by
  dsimp only [hostOps0]
  after_results_simp
  try rfl

theorem pre_arg8 : StableHlo.after hostOps0 Wv (Proc.devRef .tc main_arg8) = Wv (Proc.devRef .tc main_arg8) := by
  dsimp only [hostOps0]
  after_results_simp
  try rfl

theorem pre_arg9 : StableHlo.after hostOps0 Wv (Proc.devRef .tc main_arg9) = Wv (Proc.devRef .tc main_arg9) := by
  dsimp only [hostOps0]
  after_results_simp
  try rfl

/-! ## Between the regions, from any contents -/

theorem mid_avg : StableHlo.after hostOps1 Wv (Proc.devRef .tc main_v29)
    = avg (Wv (Proc.devRef .tc main_v17)) (Wv (Proc.devRef .tc main_arg3)) := by
  dsimp only [hostOps1]
  after_results_simp
  unfold avg
  rfl

theorem mid_arg0 : StableHlo.after hostOps1 Wv (Proc.devRef .tc main_arg0) = Wv (Proc.devRef .tc main_arg0) := by
  dsimp only [hostOps1]
  after_results_simp
  try rfl

theorem mid_arg1 : StableHlo.after hostOps1 Wv (Proc.devRef .tc main_arg1) = Wv (Proc.devRef .tc main_arg1) := by
  dsimp only [hostOps1]
  after_results_simp
  try rfl

theorem mid_wih : StableHlo.after hostOps1 Wv (Proc.devRef .tc main_v30) = val_main_v33 (F := Ideal) (Wv (Proc.devRef .tc main_arg6)) := by
  dsimp only [hostOps1]
  after_results_simp
  unfold val_main_v33
  rfl

theorem mid_whh : StableHlo.after hostOps1 Wv (Proc.devRef .tc main_v31) = val_main_v38 (F := Ideal) (Wv (Proc.devRef .tc main_arg7)) := by
  dsimp only [hostOps1]
  after_results_simp
  unfold val_main_v38
  rfl

theorem mid_bih : StableHlo.after hostOps1 Wv (Proc.devRef .tc main_v32)
    = shapeCast S1x384 (Wv (Proc.devRef .tc main_arg8)) shapeCasts_S384_S1x384 := by
  dsimp only [hostOps1]
  after_results_simp
  try rfl

theorem mid_bhh : StableHlo.after hostOps1 Wv (Proc.devRef .tc main_v33)
    = shapeCast S1x384 (Wv (Proc.devRef .tc main_arg9)) shapeCasts_S384_S1x384 := by
  dsimp only [hostOps1]
  after_results_simp
  try rfl

end Stretches

/-- A vector as a one-row matrix: entry `(0, j)` is entry `j`, whether spelt as a reshape or as a broadcast along a new
    leading axis. -/
theorem row128 (b : (⟨S128, .f32⟩ : BufTy).Contents (Elt Ideal)) : shapeCast S1x128 b shapeCasts_S128_S1x128 = val_main_v17 (F := Ideal) b := by
  funext i
  obtain ⟨u, j, rfl⟩ : ∃ (u : Fin 1) (j : Fin 128), i = ix2 u j := ⟨i 0, i 1, eq_ix2 i⟩
  rw [val_main_v17_apply]
  refine (shapeCast_a_1a_apply _ _ u j).trans (congrArg _ (funext fun a => ?_))
  match a with
  | ⟨0, _⟩ => rfl
theorem row384a (b : (⟨S384, .f32⟩ : BufTy).Contents (Elt Ideal)) : shapeCast S1x384 b shapeCasts_S384_S1x384 = val_main_v35 (F := Ideal) b := by
  funext i
  obtain ⟨u, j, rfl⟩ : ∃ (u : Fin 1) (j : Fin 384), i = ix2 u j := ⟨i 0, i 1, eq_ix2 i⟩
  rw [val_main_v35_apply]
  refine (shapeCast_a_1a_apply _ _ u j).trans (congrArg _ (funext fun a => ?_))
  match a with
  | ⟨0, _⟩ => rfl
theorem row384b (b : (⟨S384, .f32⟩ : BufTy).Contents (Elt Ideal)) : shapeCast S1x384 b shapeCasts_S384_S1x384 = val_main_v40 (F := Ideal) b := by
  funext i
  obtain ⟨u, j, rfl⟩ : ∃ (u : Fin 1) (j : Fin 384), i = ix2 u j := ⟨i 0, i 1, eq_ix2 i⟩
  rw [val_main_v40_apply]
  refine (shapeCast_a_1a_apply _ _ u j).trans (congrArg _ (funext fun a => ?_))
  match a with
  | ⟨0, _⟩ => rfl

/-! ## The two regions' entry contents, from the launch memory -/

variable (m : (ℓ : Loc nD τ sig) → Buf (Elt Ideal) ℓ) (ρ : Dev nD → PrngReg) (c : Dev nD)

/-- The edge features the message region reads. -/
theorem feat_eq : V1 m ρ c main_v14 = val_main_v14 (F := Ideal) (m ((c : Thread nD τ).loc main_arg0)) (m ((c : Thread nD τ).loc main_arg1)) (m ((c : Thread nD τ).loc main_arg2)) :=
  pre_feat (W0 m ρ c)

/-- The message weights, transposed. -/
theorem wmsg_eq : V1 m ρ c main_v15 = val_main_v15 (F := Ideal) (m ((c : Thread nD τ).loc main_arg4)) :=
  pre_wmsg (W0 m ρ c)

/-- The message bias as one row. -/
theorem bmsg_eq : V1 m ρ c main_v16 = val_main_v17 (F := Ideal) (m ((c : Thread nD τ).loc main_arg5)) :=
  (pre_bmsg (W0 m ρ c)).trans (row128 _)

theorem W2_arg0 : W2 m ρ c (Proc.devRef .tc main_arg0) = m ((c : Thread nD τ).loc main_arg0) :=
  (W2_of_ne m ρ c main_arg0 (by decide)).trans (pre_arg0 (W0 m ρ c))

theorem W2_arg1 : W2 m ρ c (Proc.devRef .tc main_arg1) = m ((c : Thread nD τ).loc main_arg1) :=
  (W2_of_ne m ρ c main_arg1 (by decide)).trans (pre_arg1 (W0 m ρ c))

theorem W2_arg3 : W2 m ρ c (Proc.devRef .tc main_arg3) = m ((c : Thread nD τ).loc main_arg3) :=
  (W2_of_ne m ρ c main_arg3 (by decide)).trans (pre_arg3 (W0 m ρ c))

theorem W2_arg6 : W2 m ρ c (Proc.devRef .tc main_arg6) = m ((c : Thread nD τ).loc main_arg6) :=
  (W2_of_ne m ρ c main_arg6 (by decide)).trans (pre_arg6 (W0 m ρ c))

theorem W2_arg7 : W2 m ρ c (Proc.devRef .tc main_arg7) = m ((c : Thread nD τ).loc main_arg7) :=
  (W2_of_ne m ρ c main_arg7 (by decide)).trans (pre_arg7 (W0 m ρ c))

theorem W2_arg8 : W2 m ρ c (Proc.devRef .tc main_arg8) = m ((c : Thread nD τ).loc main_arg8) :=
  (W2_of_ne m ρ c main_arg8 (by decide)).trans (pre_arg8 (W0 m ρ c))

theorem W2_arg9 : W2 m ρ c (Proc.devRef .tc main_arg9) = m ((c : Thread nD τ).loc main_arg9) :=
  (W2_of_ne m ρ c main_arg9 (by decide)).trans (pre_arg9 (W0 m ρ c))

/-- The message region's output array at its exit. -/
theorem msg_out_eq : W2 m ρ c (Proc.devRef .tc main_v17) = (dat0 (V1 m ρ) c).arrAt 3 cfg0.N :=
  W2_arr m ρ c 3

/-- The averaged messages are the reference's, once the message array is the reference's. -/
theorem avg_eq (hmsg : W2 m ρ c (Proc.devRef .tc main_v17) = val_main_v19 (F := Ideal) (m ((c : Thread nD τ).loc main_arg0)) (m ((c : Thread nD τ).loc main_arg1)) (m ((c : Thread nD τ).loc main_arg2)) (m ((c : Thread nD τ).loc main_arg4)) (m ((c : Thread nD τ).loc main_arg5))) :
    V3 m ρ c main_v29 = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (mid_avg (W2 m ρ c)).trans ?_
  rw [hmsg, W2_arg3 m ρ c, ref_avg]

/-- The node features, as the update region finds them. -/
theorem x_eq : V3 m ρ c main_arg0 = m ((c : Thread nD τ).loc main_arg0) :=
  (mid_arg0 (W2 m ρ c)).trans (W2_arg0 m ρ c)

/-- The node states, as the update region finds them. -/
theorem h_eq : V3 m ρ c main_arg1 = m ((c : Thread nD τ).loc main_arg1) :=
  (mid_arg1 (W2 m ρ c)).trans (W2_arg1 m ρ c)

/-- The input-side update weights, transposed. -/
theorem wih_eq : V3 m ρ c main_v30 = val_main_v33 (F := Ideal) (m ((c : Thread nD τ).loc main_arg6)) :=
  (mid_wih (W2 m ρ c)).trans (congrArg _ (W2_arg6 m ρ c))

/-- The state-side update weights, transposed. -/
theorem whh_eq : V3 m ρ c main_v31 = val_main_v38 (F := Ideal) (m ((c : Thread nD τ).loc main_arg7)) :=
  (mid_whh (W2 m ρ c)).trans (congrArg _ (W2_arg7 m ρ c))

/-- The input-side update bias as one row. -/
theorem bih_eq : V3 m ρ c main_v32 = val_main_v35 (F := Ideal) (m ((c : Thread nD τ).loc main_arg8)) :=
  ((mid_bih (W2 m ρ c)).trans (row384a _)).trans (congrArg _ (W2_arg8 m ρ c))

/-- The state-side update bias as one row. -/
theorem bhh_eq : V3 m ρ c main_v33 = val_main_v40 (F := Ideal) (m ((c : Thread nD τ).loc main_arg9)) :=
  ((mid_bhh (W2 m ρ c)).trans (row384b _)).trans (congrArg _ (W2_arg9 m ρ c))

end Cert.HostStages

end
-- ==== Proof.Spec.lean ====
/-
  The mathematics both programs compute, index by index, on the extended reals.

  A graph layer: every edge `e` carries a message — the concatenated features of its source node (a row of 256
  numbers) against the message weights, plus a bias; the messages are averaged over each node's incoming edges; each
  node then takes one step of a gated recurrent unit whose input is its own features joined with its averaged message.

  Only the two dense stages are spelt here (the gather of source rows and the averaging over incoming edges are the
  same host operations in both programs, and are never opened):
  * `msg`: entry `(e, j)` of the messages is the sum over `k < 256` of `feat (e, k) · w (k, j)`, plus `b j`;
  * `gruRow`: entry `j` of a node's new state from its joined input row `xc` (256 numbers) and its old state `h`
    (128 numbers): with `gi = xc · Wih + bih` and `gh = h · Whh + bhh` (384 numbers each, three gates of 128),
    `r = σ(gi₀ + gh₀)`, `z = σ(gi₁ + gh₁)`, `n = tanh(gi₂ + r · gh₂)`, and the result `(1 − z) · n + z · h`.
  No law beyond the definitions is needed to join the two programs: a product accumulated block by block over rows is
  the same sum at each entry, and `σ x` is `1 / (1 + e^(−x))` on both sides.
-/
import Idealize.ShloMosaic.PureOps.Ideal
import Idealize.ShloMosaic.Lib.ValueIdx

noncomputable section

namespace Cert.Spec

open Idealize.ShloMosaic Idealize.ShloMosaic.ValueIdx

/-- The word of `1.0` denotes the real number one. -/
theorem one_word : Ideal.ofBits .f32 0x3F800000#32 = 1 := by
  simp [Ideal.ofBits, Ideal.ieee, -EReal.coe_mul]; norm_num

/-- An edge's message at column `j`: its feature row against column `j` of the weights, plus the bias. -/
def msg (feat : (⟨2, ![800000, 256]⟩ : Shape).Idx → EReal) (w : (⟨2, ![256, 128]⟩ : Shape).Idx → EReal)
    (b : (⟨2, ![1, 128]⟩ : Shape).Idx → EReal) : (⟨2, ![800000, 128]⟩ : Shape).Idx → EReal :=
  fun i => (∑ k : Fin 256, feat (ix2 (i 0) k) * w (ix2 k (i 1))) + b (ix2 (0 : Fin 1) (i 1))

/-- Column `g` of the input-side pre-activations of one node: its joined input row against the weights, plus the bias. -/
def gateIn (xc : Fin 256 → EReal) (wih : (⟨2, ![256, 384]⟩ : Shape).Idx → EReal)
    (bih : (⟨2, ![1, 384]⟩ : Shape).Idx → EReal) (g : Fin 384) : EReal :=
  (∑ k : Fin 256, xc k * wih (ix2 k g)) + bih (ix2 (0 : Fin 1) g)

/-- Column `g` of the state-side pre-activations of one node. -/
def gateHid (h : Fin 128 → EReal) (whh : (⟨2, ![128, 384]⟩ : Shape).Idx → EReal)
    (bhh : (⟨2, ![1, 384]⟩ : Shape).Idx → EReal) (g : Fin 384) : EReal :=
  (∑ k : Fin 128, h k * whh (ix2 k g)) + bhh (ix2 (0 : Fin 1) g)

/-- The three gate columns belonging to output column `j`. -/
abbrev g0 (j : Fin 128) : Fin 384 := ⟨j.val, by have := j.isLt; omega⟩
abbrev g1 (j : Fin 128) : Fin 384 := ⟨128 + j.val, by have := j.isLt; omega⟩
abbrev g2 (j : Fin 128) : Fin 384 := ⟨256 + j.val, by have := j.isLt; omega⟩

/-- One entry of one node's gated update. -/
def gruRow (xc : Fin 256 → EReal) (h : Fin 128 → EReal)
    (wih : (⟨2, ![256, 384]⟩ : Shape).Idx → EReal) (whh : (⟨2, ![128, 384]⟩ : Shape).Idx → EReal)
    (bih bhh : (⟨2, ![1, 384]⟩ : Shape).Idx → EReal) (j : Fin 128) : EReal :=
  (1 - Ideal.logistic (gateIn xc wih bih (g1 j) + gateHid h whh bhh (g1 j)))
      * Ideal.tanh (gateIn xc wih bih (g2 j)
          + Ideal.logistic (gateIn xc wih bih (g0 j) + gateHid h whh bhh (g0 j)) * gateHid h whh bhh (g2 j))
    + Ideal.logistic (gateIn xc wih bih (g1 j) + gateHid h whh bhh (g1 j)) * h j

end Cert.Spec

end
-- ==== Proof.MsgRef.lean ====
/-
  The reference's message stage, read at an index: the host's `dot_general` of the edge features against the
  transposed weights plus the twice-broadcast bias is, entry by entry, the sum over the 256 feature columns of
  feature times weight, plus the bias of that column.
-/
import proofs.«125218_j29214367547980_1_alg».proof.Proof.Spec
import proofs.«125218_j29214367547980_1_alg».proof.Proof.Gen.ReferenceIdeal.Read

noncomputable section

namespace Cert.MsgRef

open Cert.ReferenceIdeal Cert.ReferenceIdeal.Read Idealize.ShloMosaic Idealize.ShloMosaic.ValueIdx

/-- The left operand's index of the contraction is row `i 0`, column `k`. -/
theorem lidx_eq (i : S800000x128.Idx) (k : Fin 256) : lidx_main_v16 i k = ix2 (i 0) k :=
  funext fun a => Fin.ext (by match a with | ⟨0, _⟩ => rfl | ⟨1, _⟩ => rfl)

/-- The right operand's index of the contraction is row `k`, column `i 1`. -/
theorem ridx_eq (i : S800000x128.Idx) (k : Fin 256) : ridx_main_v16 i k = ix2 k (i 1) :=
  funext fun a => Fin.ext (by match a with | ⟨0, _⟩ => rfl | ⟨1, _⟩ => rfl)

/-- The broadcast bias is read at row `0`, column `i 1`. -/
theorem bidx_eq (i : S800000x128.Idx) : idx_main_v18 i = ix2 (0 : Fin 1) (i 1) :=
  funext fun a => Fin.ext (by match a with | ⟨0, _⟩ => rfl | ⟨1, _⟩ => rfl)

/-- The reference's messages are the specification's, of its own feature, weight and bias stages. -/
theorem msg_ref (x0 x1 : (⟨S50000x128, .f32⟩ : BufTy).Contents (Elt Ideal))
    (x2 : (⟨S800000, .i32⟩ : BufTy).Contents (Elt Ideal))
    (x4 : (⟨S128x256, .f32⟩ : BufTy).Contents (Elt Ideal))
    (x5 : (⟨S128, .f32⟩ : BufTy).Contents (Elt Ideal)) :
    val_main_v19 (F := Ideal) x0 x1 x2 x4 x5
      = Cert.Spec.msg (val_main_v14 (F := Ideal) x0 x1 x2) (val_main_v15 (F := Ideal) x4)
          (val_main_v17 (F := Ideal) x5) := by
  funext i
  rw [val_main_v19_apply, val_main_v16_apply, val_main_v18_apply]
  simp only [lidx_eq, ridx_eq, bidx_eq]
  rfl

end Cert.MsgRef

end
-- ==== Proof.MsgPayload.lean ====
/-
  One entry of the message kernel's block: the product of a block of 4000 feature rows with the whole weight matrix,
  accumulated from zero, plus the bias row repeated down the block, is at row `r` and column `j` the sum over the 256
  feature columns of feature times weight, plus the bias of column `j`. The format change to bf16 in front of the
  product is the identity on the extended reals, and the shape casts are to the same shape.
-/
import proofs.«125218_j29214367547980_1_alg».proof.Proof.Spec
import proofs.«125218_j29214367547980_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.MsgPayload

open Cert.KernelIdeal Idealize.ShloMosaic Idealize.ShloMosaic.ValueIdx

/-- The block product's dimension numbers: rows of the left operand against columns of the right, one contracted axis. -/
abbrev D := dot_S4000x256_S256x128_S4000x128_1_0_0_1_n_n

theorem lhs_0 (i : S4000x128.Idx) (q : D.contr.Idx) : (D.lhsIdx i q 0).val = (i 0).val := by
  unfold DotDims.lhsIdx
  rw [dif_neg (show ¬(0 : Fin S4000x256.rank) ∈ D.lhsBatch by decide),
    dif_pos (show (0 : Fin S4000x256.rank) ∈ D.lhsNonContracting by decide)]
  rfl
theorem lhs_1 (i : S4000x128.Idx) (q : D.contr.Idx) : (D.lhsIdx i q 1).val = (q ⟨0, by decide⟩).val :=
  D.lhsIdx_val_of_single rfl i q
theorem rhs_0 (i : S4000x128.Idx) (q : D.contr.Idx) : (D.rhsIdx i q 0).val = (q ⟨0, by decide⟩).val :=
  D.rhsIdx_val_of_single rfl i q
theorem rhs_1 (i : S4000x128.Idx) (q : D.contr.Idx) : (D.rhsIdx i q 1).val = (i 1).val := by
  unfold DotDims.rhsIdx
  rw [dif_neg (show ¬(1 : Fin S256x128.rank) ∈ D.rhsBatch by decide),
    dif_pos (show (1 : Fin S256x128.rank) ∈ D.rhsNonContracting by decide)]
  rfl

/-- The block product into a zero accumulator, at row `r` and column `j`: the sum over the contracted axis. -/
theorem matmul_at (x : FVec Ideal S4000x256 .bf16) (y : FVec Ideal S256x128 .bf16) (r : Fin 4000) (j : Fin 128) :
    FloatOps.matmul D none x y (constant (F := Ideal) S4000x128 .f32 0x00000000#32) (ix2 r j)
      = ∑ k : Fin 256, x (ix2 r k) * y (ix2 k j) := by
  rw [Ideal.matmul_constant_zero_apply, ← Equiv.sum_comp (ValueIdx.contrEquiv1 D 256 rfl rfl).symm]
  refine Finset.sum_congr rfl fun k _ => ?_
  have hk := ValueIdx.contrEquiv1_symm_val D 256 rfl rfl k
  have el : D.lhsIdx (ix2 r j) ((ValueIdx.contrEquiv1 D 256 rfl rfl).symm k) = ix2 r k :=
    funext fun a => Fin.ext (by
      match a with
      | ⟨0, _⟩ => exact lhs_0 _ _
      | ⟨1, _⟩ => exact (lhs_1 _ _).trans hk)
  have er : D.rhsIdx (ix2 r j) ((ValueIdx.contrEquiv1 D 256 rfl rfl).symm k) = ix2 k j :=
    funext fun a => Fin.ext (by
      match a with
      | ⟨0, _⟩ => exact (rhs_0 _ _).trans hk
      | ⟨1, _⟩ => exact rhs_1 _ _)
  rw [el, er]

/-- The kernel's stored value at row `r`, column `j` of its block. -/
theorem pay_at (a : Vec Ideal S4000x256 .f32) (w : Vec Ideal S256x128 .f32) (b : Vec Ideal S1x128 .f32)
    (r : Fin 4000) (j : Fin 128) :
    Gen.k0_pay1 (F := Ideal) a w b (ix2 r j)
      = (∑ k : Fin 256, a (ix2 r k) * w (ix2 k j)) + b (ix2 (0 : Fin 1) j) := by
  unfold Gen.k0_pay1
  simp only [shapeCast_self]
  rw [addf_apply]
  simp only [matmul]
  rw [matmul_at, broadcastTo_1b_ab_apply]
  rfl

end Cert.MsgPayload

end
-- ==== Proof.MsgBlocks.lean ====
/-
  From the blocks to the array. The message kernel's grid has 200 points; point `t` reads rows `4000·t … 4000·t + 3999`
  of the features, the whole weight matrix and the whole bias row, and writes back the same rows of the messages. Each
  entry it writes is the specification's entry of the array index it lands on, and the 200 row blocks fill the
  array, so after the last write-back the array is the specification's function of the three input arrays.
-/
import proofs.«125218_j29214367547980_1_alg».proof.Proof.MsgPayload
import proofs.«125218_j29214367547980_1_alg».proof.Proof.Gen.KernelIdeal.Frame

noncomputable section

namespace Cert.MsgValue

open Cert.KernelIdeal Cert.KernelIdeal.Gen Idealize.ShloMosaic Idealize.ShloMosaic.TcCoe Idealize.SL.Sem
open Idealize.ShloMosaic.ValueIdx
open Idealize.ShloMosaic.Pipeline (Dat)

theorem zero_off : (![0, 0] : Fin 2 → Nat) = fun _ => 0 := funext fun a => by fin_cases a <;> rfl

/-- One entry of a block, for any three arrays and any three blocks that read them where the entry's array index
    says: the feature block's row `x 0` is the array's row `i 0`, the weights and the bias are read whole, and the
    entry's column is `i 1`. -/
theorem entry_eq (A : S800000x256.Idx → EReal) (Wt : S256x128.Idx → EReal) (B : S1x128.Idx → EReal)
    (a : Vec Ideal S4000x256 .f32) (w : Vec Ideal S256x128 .f32) (b : Vec Ideal S1x128 .f32)
    (x : S4000x128.Idx) (i : S800000x128.Idx)
    (ha : ∀ k : Fin 256, a (ix2 (x 0) k) = A (ix2 (i 0) k))
    (hw : ∀ k : Fin 256, w (ix2 k (x 1)) = Wt (ix2 k (i 1)))
    (hb : b (ix2 (0 : Fin 1) (x 1)) = B (ix2 (0 : Fin 1) (i 1))) :
    k0_pay1 (F := Ideal) a w b x = Cert.Spec.msg A Wt B i := by
  obtain ⟨r, j, rfl⟩ : ∃ (r : Fin 4000) (j : Fin 128), x = ix2 r j := ⟨x 0, x 1, eq_ix2 x⟩
  rw [Cert.MsgPayload.pay_at]
  unfold Cert.Spec.msg
  rw [← hb]
  exact congrArg (· + b (ix2 (0 : Fin 1) j)) (Finset.sum_congr rfl fun k _ => by rw [← ha k, ← hw k])

/-- The printed index maps, decided over the grid: the feature window moves with the message window down the rows
    and stays at column block 0; the weights and the bias stay at block (0, 0); the message window's row block is
    below 200 and its column block is 0. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 199 ∧ win0_3.index t (1 : Fin 2) = 0 :=
  (by decide +kernel : ∀ t : Fin grid0.N, _)

/-- Every row block of the messages is some point's. -/
theorem idx_onto : ∀ q : Fin 200, ∃ t : Fin cfg0.N, win0_3.index t = ![q.val, 0] :=
  (by decide +kernel : ∀ q : Fin 200, ∃ t : Fin grid0.N, win0_3.index t = ![q.val, 0])

section Region
variable (V : (c : Dev nD) → (b : Ref sig .tc) → Buf (Elt Ideal) ((c : Thread nD τ).loc b))

/-- What point `t` writes back is block `t` of the specification's messages of the arrays as the region finds them. -/
theorem flushed_eq (c : Dev nD) (t : Fin cfg0.N) :
    (dat0 (F := Ideal) V c).flushed 3 t
      = ((cfg0.win 3).blk t).view.read (Elt Ideal)
          (Cert.Spec.msg (V c main_v14) (V c main_v15) (V c main_v16)) := by
  show (cfg0.win 3).cut (grid0.coords t) ((dat0 (F := Ideal) V c).after 3 t) = _
  rw [after0_3]
  unfold out0_3
  rw [View.canon_unit_zero zero_off]
  simp only [View.ld_unit_zero (S := S4000x256) zero_off, View.ld_unit_zero (S := S256x128) zero_off,
    View.ld_unit_zero (S := S1x128) zero_off]
  obtain ⟨e00, e01, e10, e11, e20, e21, e3le, e31⟩ := idx_facts t
  funext y
  have hy0 : (y 0).val < 4000 := (y 0).isLt
  have hy1 : (y 1).val < 128 := (y 1).isLt
  refine entry_eq (V c main_v14) (V c main_v15) (V c main_v16) _ _ _ _ (((cfg0.win 3).blk t).view.emb y)
    (fun k => ?_) (fun k => ?_) ?_
  · show V c main_v14 (((cfg0.win 0).blk t).view.emb _) = V c main_v14 _
    refine congrArg (V c main_v14) (funext fun a => Fin.ext ?_)
    match a with
    | ⟨0, _⟩ =>
      show win0_0.index t (0 : Fin 2) * 4000 + 1 * (y 0).val = win0_3.index t (0 : Fin 2) * 4000 + 1 * (y 0).val
      rw [e00]
    | ⟨1, _⟩ =>
      show win0_0.index t (1 : Fin 2) * 256 + 1 * k.val = k.val
      rw [e01]; omega
  · show V c main_v15 (((cfg0.win 1).blk t).view.emb _) = V c main_v15 _
    refine congrArg (V c main_v15) (funext fun a => Fin.ext ?_)
    match a with
    | ⟨0, _⟩ =>
      show win0_1.index t (0 : Fin 2) * 256 + 1 * k.val = k.val
      rw [e10]; omega
    | ⟨1, _⟩ =>
      show win0_1.index t (1 : Fin 2) * 128 + 1 * (y 1).val = win0_3.index t (1 : Fin 2) * 128 + 1 * (y 1).val
      rw [e11, e31]
  · show V c main_v16 (((cfg0.win 2).blk t).view.emb _) = V c main_v16 _
    refine congrArg (V c main_v16) (funext fun a => Fin.ext ?_)
    match a with
    | ⟨0, _⟩ =>
      show win0_2.index t (0 : Fin 2) * 1 + 1 * 0 = 0
      rw [e20]
    | ⟨1, _⟩ =>
      show win0_2.index t (1 : Fin 2) * 128 + 1 * (y 1).val = win0_3.index t (1 : Fin 2) * 128 + 1 * (y 1).val
      rw [e21, e31]

/-- An index of the messages is in point `t`'s block iff each coordinate is in the block's range on its axis. -/
theorem mem_blk (t : Fin cfg0.N) (i : S800000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v17).slice (win0_3.rect t)).set ↔ _
  rw [View.set_slice_whole, Rect.mem_set_unit]
  exact Iff.rfl

/-- Every index of the messages is in some point's block: row `i 0` is in row block `i 0 / 4000`. -/
theorem covered (i : S800000x128.Idx) :
    ∃ t : Fin cfg0.N, (cfg0.win 3).flush t = true ∧ i ∈ ((cfg0.win 3).blk t).view.set := by
  have hi0 : (i 0).val < 800000 := (i 0).isLt
  have hi1 : (i 1).val < 128 := (i 1).isLt
  obtain ⟨t, ht⟩ := idx_onto ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 128 ≤ (i 1).val ∧ (i 1).val < win0_3.index t (1 : Fin 2) * 128 + 128
    omega

/-- The messages' array after the region's last write-back is the specification's function of the feature, weight
    and bias arrays as the region finds them. -/
theorem msg_array (c : Dev nD) :
    (dat0 (F := Ideal) V c).arrAt 3 cfg0.N
      = Cert.Spec.msg (V c main_v14) (V c main_v15) (V c main_v16) :=
  (dat0 (F := Ideal) V c).arrAt_eq_of_cover 3 _ (fun t _ => flushed_eq V c t) covered

end Region

end Cert.MsgValue

end
-- ==== Proof.GruRef.lean ====
/-
  The reference's node update at one entry.

  The reference computes the same update for all 50000 nodes at once with host operations: the two pre-activation
  matrices by one product each plus a broadcast bias, the three gates as column slices at offsets 0, 128 and 256, the
  logistic function spelt out as `1 / (1 + e^(−x))`, and the combination entry by entry. Read at row `n` and column `j`
  it is `Spec.gruRow` of row `n` of the joined input and row `n` of the state: a column slice from offset `o` reads
  column `o + j`, a product reads the sum over the contracted index, and `1 / (1 + e^(−x))` is the logistic function
  on the extended reals by definition.
-/
import proofs.«125218_j29214367547980_1_alg».proof.Proof.Spec
import proofs.«125218_j29214367547980_1_alg».proof.Proof.Gen.ReferenceIdeal.Read

set_option maxRecDepth 16384
set_option maxHeartbeats 1000000

noncomputable section

namespace Cert.GruRef

open Idealize.ShloMosaic Idealize.ShloMosaic.ValueIdx
open Cert.ReferenceIdeal Cert.ReferenceIdeal.Read

section Indices

variable (n : Fin 50000) (j : Fin 128) (g : Fin 384)

/-! The gate slices' columns, and the operands' entries of the two products and the two biases. -/
theorem s43 : idx_main_v43 (ix2 n j) = ix2 n (Spec.g0 j) :=
  funext fun a => Fin.ext (by
    match a with
    | ⟨0, _⟩ => rfl
    | ⟨1, _⟩ => rfl)
theorem s44 : idx_main_v44 (ix2 n j) = ix2 n (Spec.g1 j) :=
  funext fun a => Fin.ext (by
    match a with
    | ⟨0, _⟩ => rfl
    | ⟨1, _⟩ => rfl)
theorem s45 : idx_main_v45 (ix2 n j) = ix2 n (Spec.g2 j) :=
  funext fun a => Fin.ext (by
    match a with
    | ⟨0, _⟩ => rfl
    | ⟨1, _⟩ => rfl)
theorem s46 : idx_main_v46 (ix2 n j) = ix2 n (Spec.g0 j) :=
  funext fun a => Fin.ext (by
    match a with
    | ⟨0, _⟩ => rfl
    | ⟨1, _⟩ => rfl)
theorem s47 : idx_main_v47 (ix2 n j) = ix2 n (Spec.g1 j) :=
  funext fun a => Fin.ext (by
    match a with
    | ⟨0, _⟩ => rfl
    | ⟨1, _⟩ => rfl)
theorem s48 : idx_main_v48 (ix2 n j) = ix2 n (Spec.g2 j) :=
  funext fun a => Fin.ext (by
    match a with
    | ⟨0, _⟩ => rfl
    | ⟨1, _⟩ => rfl)
theorem l34 (k : Fin 256) : lidx_main_v34 (ix2 n g) k = ix2 n k :=
  funext fun a => Fin.ext (by
    match a with
    | ⟨0, _⟩ => rfl
    | ⟨1, _⟩ => rfl)
theorem r34 (k : Fin 256) : ridx_main_v34 (ix2 n g) k = ix2 k g :=
  funext fun a => Fin.ext (by
    match a with
    | ⟨0, _⟩ => rfl
    | ⟨1, _⟩ => rfl)
theorem l39 (k : Fin 128) : lidx_main_v39 (ix2 n g) k = ix2 n k :=
  funext fun a => Fin.ext (by
    match a with
    | ⟨0, _⟩ => rfl
    | ⟨1, _⟩ => rfl)
theorem r39 (k : Fin 128) : ridx_main_v39 (ix2 n g) k = ix2 k g :=
  funext fun a => Fin.ext (by
    match a with
    | ⟨0, _⟩ => rfl
    | ⟨1, _⟩ => rfl)
theorem b36 : idx_main_v36 (ix2 n g) = ix2 (0 : Fin 1) g :=
  funext fun a => Fin.ext (by
    match a with
    | ⟨0, _⟩ => rfl
    | ⟨1, _⟩ => rfl)
theorem b41 : idx_main_v41 (ix2 n g) = ix2 (0 : Fin 1) g :=
  funext fun a => Fin.ext (by
    match a with
    | ⟨0, _⟩ => rfl
    | ⟨1, _⟩ => rfl)

end Indices

/-- Entry `(n, j)` of the reference's result is the gated update of row `n` of the joined input and row `n` of the state. -/
theorem gru_ref (x0 x1 : (⟨S50000x128, .f32⟩ : BufTy).Contents (Elt Ideal)) (x2 x3 : (⟨S800000, .i32⟩ : BufTy).Contents (Elt Ideal)) (x4 : (⟨S128x256, .f32⟩ : BufTy).Contents (Elt Ideal)) (x5 : (⟨S128, .f32⟩ : BufTy).Contents (Elt Ideal)) (x6 : (⟨S384x256, .f32⟩ : BufTy).Contents (Elt Ideal)) (x7 : (⟨S384x128, .f32⟩ : BufTy).Contents (Elt Ideal)) (x8 x9 : (⟨S384, .f32⟩ : BufTy).Contents (Elt Ideal)) (n : Fin 50000) (j : Fin 128) :
    val_main_v70 (F := Ideal) x0 x1 x2 x3 x4 x5 x6 x7 x8 x9 (ix2 n j)
      = Spec.gruRow (fun k => val_main_v32 (F := Ideal) x0 x1 x2 x3 x4 x5 (ix2 n k)) (fun k => x1 (ix2 n k))
          (val_main_v33 (F := Ideal) x6) (val_main_v38 (F := Ideal) x7) (val_main_v35 (F := Ideal) x8) (val_main_v40 (F := Ideal) x9) j := by
  simp only [val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v39_apply, val_main_v37_apply, val_main_v36_apply, val_main_v34_apply,
    val_main_cst_6_apply, val_main_cst_7_apply, val_main_cst_8_apply, val_main_cst_9_apply, val_main_cst_10_apply,
    s43, s44, s45, s46, s47, s48, l34, r34, l39, r39, b36, b41]
  simp only [Ideal.ofBits_def, Spec.one_word]
  rfl

end Cert.GruRef

end
-- ==== Proof.GruPayload.lean ====
/-
  The node-update body at one entry.

  The body computes, for the 1000 nodes of its block, the two pre-activation matrices `gi = [x | c] · Wih + bih` and
  `gh = h · Whh + bhh` (1000 × 384 each: three gates of 128 columns), then
  `r = σ(gi₀ + gh₀)`, `z = σ(gi₁ + gh₁)`, `n = tanh(gi₂ + r · gh₂)` and `(1 − z) · n + z · h`, gate `q` being columns
  `128·q … 128·q + 127`. Read at row `r` and column `j`: a matrix product into a zero accumulator is the sum over the
  contracted index of the products; a one-row bias broadcast over the rows reads its one row; a column slice from offset
  `o` reads column `o + j`; a change of float format is the identity on the extended reals; everything else is entry by
  entry. So the entry is `Spec.gruRow` of the node's joined input row and its state row.
-/
import proofs.«125218_j29214367547980_1_alg».proof.Proof.Spec
import proofs.«125218_j29214367547980_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.GruPayload

open Idealize.ShloMosaic Idealize.ShloMosaic.ValueIdx
open Cert.KernelIdeal Cert.KernelIdeal.Gen

/-! ## The two matrix products at an entry -/

theorem dotIn_l0 (i : S1000x384.Idx) (q : dot_S1000x256_S256x384_S1000x384_1_0_0_1_n_n.contr.Idx) : (dot_S1000x256_S256x384_S1000x384_1_0_0_1_n_n.lhsIdx i q 0).val = (i 0).val := by
  unfold DotDims.lhsIdx
  rw [dif_neg (show ¬(0 : Fin S1000x256.rank) ∈ dot_S1000x256_S256x384_S1000x384_1_0_0_1_n_n.lhsBatch by decide), dif_pos (show (0 : Fin S1000x256.rank) ∈ dot_S1000x256_S256x384_S1000x384_1_0_0_1_n_n.lhsNonContracting by decide)]
  rfl
theorem dotIn_r1 (i : S1000x384.Idx) (q : dot_S1000x256_S256x384_S1000x384_1_0_0_1_n_n.contr.Idx) : (dot_S1000x256_S256x384_S1000x384_1_0_0_1_n_n.rhsIdx i q 1).val = (i 1).val := by
  unfold DotDims.rhsIdx
  rw [dif_neg (show ¬(1 : Fin S256x384.rank) ∈ dot_S1000x256_S256x384_S1000x384_1_0_0_1_n_n.rhsBatch by decide), dif_pos (show (1 : Fin S256x384.rank) ∈ dot_S1000x256_S256x384_S1000x384_1_0_0_1_n_n.rhsNonContracting by decide)]
  rfl

/-- The input-side product: entry `(r, g)` is the sum over the 256 joined input columns. -/
theorem dotIn_apply (a : FVec Ideal S1000x256 .bf16) (w : FVec Ideal S256x384 .bf16) (r : Fin 1000) (g : Fin 384) :
    matmul dot_S1000x256_S256x384_S1000x384_1_0_0_1_n_n none a w (constant (F := Ideal) S1000x384 .f32 0x00000000#32) (ix2 r g)
      = ∑ k : Fin 256, a (ix2 r k) * w (ix2 k g) := by
  simp only [matmul]
  rw [Ideal.matmul_constant_zero_apply, ← Equiv.sum_comp (contrEquiv1 dot_S1000x256_S256x384_S1000x384_1_0_0_1_n_n 256 rfl rfl).symm]
  refine Finset.sum_congr rfl fun k _ => ?_
  have hk := contrEquiv1_symm_val dot_S1000x256_S256x384_S1000x384_1_0_0_1_n_n 256 rfl rfl k
  have el : dot_S1000x256_S256x384_S1000x384_1_0_0_1_n_n.lhsIdx (ix2 r g) ((contrEquiv1 dot_S1000x256_S256x384_S1000x384_1_0_0_1_n_n 256 rfl rfl).symm k) = ix2 r k := funext fun ax => Fin.ext (by
    match ax with
    | ⟨0, _⟩ => exact dotIn_l0 _ _
    | ⟨1, _⟩ => exact (dot_S1000x256_S256x384_S1000x384_1_0_0_1_n_n.lhsIdx_val_of_single rfl _ _).trans hk)
  have er : dot_S1000x256_S256x384_S1000x384_1_0_0_1_n_n.rhsIdx (ix2 r g) ((contrEquiv1 dot_S1000x256_S256x384_S1000x384_1_0_0_1_n_n 256 rfl rfl).symm k) = ix2 k g := funext fun ax => Fin.ext (by
    match ax with
    | ⟨0, _⟩ => exact (dot_S1000x256_S256x384_S1000x384_1_0_0_1_n_n.rhsIdx_val_of_single rfl _ _).trans hk
    | ⟨1, _⟩ => exact dotIn_r1 _ _)
  rw [el, er]

theorem dotHid_l0 (i : S1000x384.Idx) (q : dot_S1000x128_S128x384_S1000x384_1_0_0_1_n_n.contr.Idx) : (dot_S1000x128_S128x384_S1000x384_1_0_0_1_n_n.lhsIdx i q 0).val = (i 0).val := by
  unfold DotDims.lhsIdx
  rw [dif_neg (show ¬(0 : Fin S1000x128.rank) ∈ dot_S1000x128_S128x384_S1000x384_1_0_0_1_n_n.lhsBatch by decide), dif_pos (show (0 : Fin S1000x128.rank) ∈ dot_S1000x128_S128x384_S1000x384_1_0_0_1_n_n.lhsNonContracting by decide)]
  rfl
theorem dotHid_r1 (i : S1000x384.Idx) (q : dot_S1000x128_S128x384_S1000x384_1_0_0_1_n_n.contr.Idx) : (dot_S1000x128_S128x384_S1000x384_1_0_0_1_n_n.rhsIdx i q 1).val = (i 1).val := by
  unfold DotDims.rhsIdx
  rw [dif_neg (show ¬(1 : Fin S128x384.rank) ∈ dot_S1000x128_S128x384_S1000x384_1_0_0_1_n_n.rhsBatch by decide), dif_pos (show (1 : Fin S128x384.rank) ∈ dot_S1000x128_S128x384_S1000x384_1_0_0_1_n_n.rhsNonContracting by decide)]
  rfl

/-- The state-side product: entry `(r, g)` is the sum over the 128 state columns. -/
theorem dotHid_apply (a : FVec Ideal S1000x128 .bf16) (w : FVec Ideal S128x384 .bf16) (r : Fin 1000) (g : Fin 384) :
    matmul dot_S1000x128_S128x384_S1000x384_1_0_0_1_n_n none a w (constant (F := Ideal) S1000x384 .f32 0x00000000#32) (ix2 r g)
      = ∑ k : Fin 128, a (ix2 r k) * w (ix2 k g) := by
  simp only [matmul]
  rw [Ideal.matmul_constant_zero_apply, ← Equiv.sum_comp (contrEquiv1 dot_S1000x128_S128x384_S1000x384_1_0_0_1_n_n 128 rfl rfl).symm]
  refine Finset.sum_congr rfl fun k _ => ?_
  have hk := contrEquiv1_symm_val dot_S1000x128_S128x384_S1000x384_1_0_0_1_n_n 128 rfl rfl k
  have el : dot_S1000x128_S128x384_S1000x384_1_0_0_1_n_n.lhsIdx (ix2 r g) ((contrEquiv1 dot_S1000x128_S128x384_S1000x384_1_0_0_1_n_n 128 rfl rfl).symm k) = ix2 r k := funext fun ax => Fin.ext (by
    match ax with
    | ⟨0, _⟩ => exact dotHid_l0 _ _
    | ⟨1, _⟩ => exact (dot_S1000x128_S128x384_S1000x384_1_0_0_1_n_n.lhsIdx_val_of_single rfl _ _).trans hk)
  have er : dot_S1000x128_S128x384_S1000x384_1_0_0_1_n_n.rhsIdx (ix2 r g) ((contrEquiv1 dot_S1000x128_S128x384_S1000x384_1_0_0_1_n_n 128 rfl rfl).symm k) = ix2 k g := funext fun ax => Fin.ext (by
    match ax with
    | ⟨0, _⟩ => exact (dot_S1000x128_S128x384_S1000x384_1_0_0_1_n_n.rhsIdx_val_of_single rfl _ _).trans hk
    | ⟨1, _⟩ => exact dotHid_r1 _ _)
  rw [el, er]

/-! ## Entry-by-entry operations and the gate slices -/

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- The first gate's columns. -/
theorem gate0_apply (v : FVec Ideal S1000x384 .f32) (r : Fin 1000) (j : Fin 128) :
    extractStridedSlice S1000x128 ![0, 0] v slices_S1000x384_o0_0_S1000x128 (ix2 r j) = v (ix2 r (Spec.g0 j)) :=
  slice2_axis1_apply 0 v _ r j (Spec.g0 j) (Nat.zero_add _).symm
/-- The second gate's columns. -/
theorem gate1_apply (v : FVec Ideal S1000x384 .f32) (r : Fin 1000) (j : Fin 128) :
    extractStridedSlice S1000x128 ![0, 128] v slices_S1000x384_o0_128_S1000x128 (ix2 r j) = v (ix2 r (Spec.g1 j)) :=
  slice2_axis1_apply 128 v _ r j (Spec.g1 j) rfl
/-- The third gate's columns. -/
theorem gate2_apply (v : FVec Ideal S1000x384 .f32) (r : Fin 1000) (j : Fin 128) :
    extractStridedSlice S1000x128 ![0, 256] v slices_S1000x384_o0_256_S1000x128 (ix2 r j) = v (ix2 r (Spec.g2 j)) :=
  slice2_axis1_apply 256 v _ r j (Spec.g2 j) rfl

/-- The one-row bias broadcast over the block's rows reads its one row. -/
theorem bias_apply (b : FVec Ideal S1x384 .f32) (r : Fin 1000) (g : Fin 384) :
    broadcastTo S1000x384 b broadcasts_S1x384_S1000x384 (ix2 r g) = b (ix2 (0 : Fin 1) g) :=
  broadcastTo_1b_ab_apply b _ r g

/-! ## The body's result at an entry -/

/-- Entry `(r, j)` of the body's result is the gated update of row `r` of the joined input and row `r` of the state. -/
theorem pay_apply (x h cc : Vec Ideal S1000x128 .f32) (wih : Vec Ideal S256x384 .f32) (bih : Vec Ideal S1x384 .f32)
    (whh : Vec Ideal S128x384 .f32) (bhh : Vec Ideal S1x384 .f32) (r : Fin 1000) (j : Fin 128) :
    k1_pay1 x h cc wih bih whh bhh (ix2 r j)
      = Spec.gruRow
          (fun k => concatenate S1000x256 1 [⟨S1000x128, x⟩, ⟨S1000x128, cc⟩] concatenates_S1000x128_S1000x128_S1000x256_d1 (ix2 r k))
          (fun k => h (ix2 r k)) wih whh bih bhh j := by
  unfold k1_pay1
  simp only [addf_apply, mulf_apply, subf_apply, broadcast_apply, logistic_apply, tanh_apply, gate0_apply, gate1_apply,
    gate2_apply, dotIn_apply, dotHid_apply, bias_apply, truncf_apply, shapeCast_self, Ideal.ofBits_def, Spec.one_word, Spec.gruRow, Spec.gateIn, Spec.gateHid]

end Cert.GruPayload

end
-- ==== Proof.GruBlocks.lean ====
/-
  From the node-update region's blocks to its output array.

  Grid point `t` of the region handles nodes `1000·t … 1000·t + 999`: it reads those rows of the node features, the
  node states and the averaged messages, the whole of the two weight matrices and the two bias rows, and writes those
  rows of the output. So what point `t` writes back is block `t` of ONE function of the arrays the region starts
  from — the gated update of each node's own rows — and since the 50 blocks tile the 50000 rows, the output array ends
  holding that function.
-/
import proofs.«125218_j29214367547980_1_alg».proof.Proof.GruPayload
import proofs.«125218_j29214367547980_1_alg».proof.Proof.Gen.KernelIdeal.Frame
import proofs.«125218_j29214367547980_1_alg».proof.Proof.Gen.ReferenceIdeal

set_option maxRecDepth 16384
set_option maxHeartbeats 1000000

noncomputable section

namespace Cert.GruBlocks

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- Node `n`'s joined input row: its features, then its averaged message. -/
abbrev joined (X C : S50000x128.Idx → EReal) : Cert.ReferenceIdeal.S50000x256.Idx → EReal :=
  concatenate Cert.ReferenceIdeal.S50000x256 1 [⟨S50000x128, X⟩, ⟨S50000x128, C⟩] Cert.ReferenceIdeal.Facts₀.concatenates_S50000x128_S50000x128_S50000x256_d1

/-- The update of node `n` at column `j`, from the whole arrays. -/
def upd (X H C : S50000x128.Idx → EReal) (wih : S256x384.Idx → EReal) (whh : S128x384.Idx → EReal)
    (bih bhh : S1x384.Idx → EReal) (n : Fin 50000) (j : Fin 128) : EReal :=
  Spec.gruRow (fun k => joined X C (ix2 n k)) (fun k => H (ix2 n k)) wih whh bih bhh j

/-- A row of the block's joined input is the node's row of the whole joined input, when the block's rows are the node's. -/
theorem joined_row (xb cb : S1000x128.Idx → EReal) (X C : S50000x128.Idx → EReal) (r : Fin 1000) (R : Fin 50000)
    (hx : ∀ q : Fin 128, xb (ix2 r q) = X (ix2 R q)) (hc : ∀ q : Fin 128, cb (ix2 r q) = C (ix2 R q)) (k : Fin 256) :
    concatenate S1000x256 1 [⟨S1000x128, xb⟩, ⟨S1000x128, cb⟩] concatenates_S1000x128_S1000x128_S1000x256_d1 (ix2 r k)
      = joined X C (ix2 R k) := by
  by_cases hk : k.val < 128
  · rw [concatenate_pair_apply_left 1 xb cb _ (ix2 r k) rfl (ix2 r ⟨k.val, hk⟩) (fun b => by
        match b with
        | ⟨0, _⟩ => rfl
        | ⟨1, _⟩ => rfl)]
    unfold joined
    rw [concatenate_pair_apply_left 1 X C _ (ix2 R k) rfl (ix2 R ⟨k.val, hk⟩) (fun b => by
        match b with
        | ⟨0, _⟩ => rfl
        | ⟨1, _⟩ => rfl)]
    exact hx _
  · have hk' : k.val - 128 < 128 := by have := k.isLt; omega
    rw [concatenate_pair_apply_right 1 xb cb _ (ix2 r k) rfl rfl (ix2 r ⟨k.val - 128, hk'⟩) (fun b hb => by
        match b with
        | ⟨0, _⟩ => rfl
        | ⟨1, _⟩ => exact absurd rfl hb) (by show k.val - 128 + 128 = k.val; omega)]
    unfold joined
    rw [concatenate_pair_apply_right 1 X C _ (ix2 R k) rfl rfl (ix2 R ⟨k.val - 128, hk'⟩) (fun b hb => by
        match b with
        | ⟨0, _⟩ => rfl
        | ⟨1, _⟩ => exact absurd rfl hb) (by show k.val - 128 + 128 = k.val; omega)]
    exact hc _

/-- ONE POINT, over variables: the body's result at `(r, j)` is node `R`'s update when the point's three row blocks hold
    node `R`'s rows at row `r`. -/
theorem point_eq (x h cc : Vec Ideal S1000x128 .f32) (wih : Vec Ideal S256x384 .f32) (bih : Vec Ideal S1x384 .f32)
    (whh : Vec Ideal S128x384 .f32) (bhh : Vec Ideal S1x384 .f32) (X H C : S50000x128.Idx → EReal)
    (r : Fin 1000) (R : Fin 50000) (j : Fin 128)
    (hx : ∀ q : Fin 128, x (ix2 r q) = X (ix2 R q)) (hh : ∀ q : Fin 128, h (ix2 r q) = H (ix2 R q))
    (hc : ∀ q : Fin 128, cc (ix2 r q) = C (ix2 R q)) :
    k1_pay1 x h cc wih bih whh bhh (ix2 r j) = upd X H C wih whh bih bhh R j := by
  rw [GruPayload.pay_apply]
  unfold upd
  congr 1
  · funext k; exact joined_row x cc X C r R hx hc k
  · funext k; exact hh k

/-- ONE ENTRY of a block against the array index it lands on: the three row blocks hold the node's rows, the weights
    and biases are the whole arrays, and the entry's column is the index's. -/
theorem entry_eq (X H C : S50000x128.Idx → EReal) (Wih : S256x384.Idx → EReal) (Whh : S128x384.Idx → EReal)
    (Bih Bhh : S1x384.Idx → EReal)
    (x h cc : Vec Ideal S1000x128 .f32) (wih : Vec Ideal S256x384 .f32) (bih : Vec Ideal S1x384 .f32)
    (whh : Vec Ideal S128x384 .f32) (bhh : Vec Ideal S1x384 .f32) (y : S1000x128.Idx) (i : S50000x128.Idx)
    (hx : ∀ q : Fin 128, x (ix2 (y 0) q) = X (ix2 (i 0) q)) (hh : ∀ q : Fin 128, h (ix2 (y 0) q) = H (ix2 (i 0) q))
    (hc : ∀ q : Fin 128, cc (ix2 (y 0) q) = C (ix2 (i 0) q))
    (hwih : wih = Wih) (hbih : bih = Bih) (hwhh : whh = Whh) (hbhh : bhh = Bhh) (hj : (y 1).val = (i 1).val) :
    k1_pay1 x h cc wih bih whh bhh y = upd X H C Wih Whh Bih Bhh (i 0) (i 1) := by
  obtain ⟨r, j, rfl⟩ : ∃ (r : Fin 1000) (j : Fin 128), y = ix2 r j := ⟨y 0, y 1, eq_ix2 y⟩
  subst hwih hbih hwhh hbhh
  have ej : j = i 1 := Fin.ext hj
  rw [← ej]
  exact point_eq x h cc wih bih whh bhh X H C r (i 0) j hx hh hc

section Region

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- What the output array ends holding: each node's update from the arrays the region starts from. -/
def G : S50000x128.Idx → EReal := fun i =>
  upd (V c main_arg0) (V c main_arg1) (V c main_v29) (V c main_v30) (V c main_v31) (V c main_v32) (V c main_v33) (i 0) (i 1)

/-- The printed index maps over the grid: the three row-blocked inputs move with the output along the rows, the weights
    and biases stay at the origin, and the output's block index on the rows is the point's own. -/
theorem idx_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = win1_7.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- WHAT POINT `t` WRITES BACK is block `t` of `G`. -/
theorem flushed_eq (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S1000x128) hz, View.ld_unit_zero (S := S256x384) hz,
    View.ld_unit_zero (S := S128x384) hz, View.ld_unit_zero (S := S1x384) hz]
  obtain ⟨e00, e01, e10, e11, e20, e21, e30, e31, e40, e41, e50, e51, e60, e61, e70, e71⟩ := idx_facts t
  funext y
  have hy0 : (y 0).val < 1000 := (y 0).isLt
  have hy1 : (y 1).val < 128 := (y 1).isLt
  refine entry_eq (V c main_arg0) (V c main_arg1) (V c main_v29) (V c main_v30) (V c main_v31) (V c main_v32) (V c main_v33)
    _ _ _ _ _ _ _ _ (((cfg1.win 7).blk t).view.emb y) (fun q => ?_) (fun q => ?_) (fun q => ?_) ?_ ?_ ?_ ?_ ?_
  · show V c main_arg0 (((cfg1.win 0).blk t).view.emb _) = V c main_arg0 _
    refine congrArg (V c main_arg0) (funext fun a => Fin.ext ?_)
    match a with
    | ⟨0, _⟩ =>
      show win1_0.index t (0 : Fin 2) * 1000 + 1 * (y 0).val = win1_7.index t (0 : Fin 2) * 1000 + 1 * (y 0).val
      rw [e00]
    | ⟨1, _⟩ =>
      show win1_0.index t (1 : Fin 2) * 128 + 1 * q.val = q.val
      rw [e01]; omega
  · show V c main_arg1 (((cfg1.win 1).blk t).view.emb _) = V c main_arg1 _
    refine congrArg (V c main_arg1) (funext fun a => Fin.ext ?_)
    match a with
    | ⟨0, _⟩ =>
      show win1_1.index t (0 : Fin 2) * 1000 + 1 * (y 0).val = win1_7.index t (0 : Fin 2) * 1000 + 1 * (y 0).val
      rw [e10]
    | ⟨1, _⟩ =>
      show win1_1.index t (1 : Fin 2) * 128 + 1 * q.val = q.val
      rw [e11]; omega
  · show V c main_v29 (((cfg1.win 2).blk t).view.emb _) = V c main_v29 _
    refine congrArg (V c main_v29) (funext fun a => Fin.ext ?_)
    match a with
    | ⟨0, _⟩ =>
      show win1_2.index t (0 : Fin 2) * 1000 + 1 * (y 0).val = win1_7.index t (0 : Fin 2) * 1000 + 1 * (y 0).val
      rw [e20]
    | ⟨1, _⟩ =>
      show win1_2.index t (1 : Fin 2) * 128 + 1 * q.val = q.val
      rw [e21]; omega
  · funext p
    show V c main_v30 (((cfg1.win 3).blk t).view.emb p) = V c main_v30 p
    refine congrArg (V c main_v30) (funext fun a => Fin.ext ?_)
    match a with
    | ⟨0, _⟩ =>
      show win1_3.index t (0 : Fin 2) * 256 + 1 * (p 0).val = (p 0).val
      rw [e30]; omega
    | ⟨1, _⟩ =>
      show win1_3.index t (1 : Fin 2) * 384 + 1 * (p 1).val = (p 1).val
      rw [e31]; omega
  · funext p
    show V c main_v32 (((cfg1.win 5).blk t).view.emb p) = V c main_v32 p
    refine congrArg (V c main_v32) (funext fun a => Fin.ext ?_)
    match a with
    | ⟨0, _⟩ =>
      show win1_5.index t (0 : Fin 2) * 1 + 1 * (p 0).val = (p 0).val
      rw [e50]; omega
    | ⟨1, _⟩ =>
      show win1_5.index t (1 : Fin 2) * 384 + 1 * (p 1).val = (p 1).val
      rw [e51]; omega
  · funext p
    show V c main_v31 (((cfg1.win 4).blk t).view.emb p) = V c main_v31 p
    refine congrArg (V c main_v31) (funext fun a => Fin.ext ?_)
    match a with
    | ⟨0, _⟩ =>
      show win1_4.index t (0 : Fin 2) * 128 + 1 * (p 0).val = (p 0).val
      rw [e40]; omega
    | ⟨1, _⟩ =>
      show win1_4.index t (1 : Fin 2) * 384 + 1 * (p 1).val = (p 1).val
      rw [e41]; omega
  · funext p
    show V c main_v33 (((cfg1.win 6).blk t).view.emb p) = V c main_v33 p
    refine congrArg (V c main_v33) (funext fun a => Fin.ext ?_)
    match a with
    | ⟨0, _⟩ =>
      show win1_6.index t (0 : Fin 2) * 1 + 1 * (p 0).val = (p 0).val
      rw [e60]; omega
    | ⟨1, _⟩ =>
      show win1_6.index t (1 : Fin 2) * 384 + 1 * (p 1).val = (p 1).val
      rw [e61]; omega
  · show (y 1).val = win1_7.index t (1 : Fin 2) * 128 + 1 * (y 1).val
    rw [e71]; omega

/-- An index of the output is in point `t`'s block iff each coordinate is in the block's range on its axis. -/
theorem mem_blk (t : Fin cfg1.N) (i : S50000x128.Idx) :
    i ∈ ((cfg1.win 7).blk t).view.set ↔ ∀ a : Fin 2, win1_7.index t a * S1000x128.size a ≤ (i a).val
      ∧ (i a).val < win1_7.index t a * S1000x128.size a + S1000x128.size a := by
  show i ∈ ((View.whole main_v34).slice (win1_7.rect t)).set ↔ _
  rw [View.set_slice_whole, Rect.mem_set_unit]
  exact Iff.rfl

/-- Every block of rows is some point's. -/
theorem idx_onto : ∀ q : Fin 50, ∃ t : Fin cfg1.N, win1_7.index t = ![q.val, 0] :=
  (by decide +kernel : ∀ q : Fin 50, ∃ t : Fin grid1.N, win1_7.index t = ![q.val, 0])

/-- Every index of the output is in some point's block: node `i 0` is in block `i 0 / 1000`. -/
theorem covered (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  obtain ⟨t, ht⟩ := idx_onto ⟨(i 0).val / 1000, by omega⟩
  have q0 : win1_7.index t (0 : Fin 2) = (i 0).val / 1000 := congrFun ht 0
  have q1 : win1_7.index t (1 : Fin 2) = 0 := congrFun ht 1
  refine ⟨t, flush1_7 t, ?_⟩
  rw [mem_blk]
  intro a
  match a with
  | ⟨0, _⟩ =>
    show win1_7.index t (0 : Fin 2) * 1000 ≤ (i 0).val ∧ (i 0).val < win1_7.index t (0 : Fin 2) * 1000 + 1000
    omega
  | ⟨1, _⟩ =>
    show win1_7.index t (1 : Fin 2) * 128 ≤ (i 1).val ∧ (i 1).val < win1_7.index t (1 : Fin 2) * 128 + 128
    omega

/-- The output array after the region's last write-back: every node's update from the arrays the region starts from. -/
theorem gru_array : (dat1 (F := Ideal) V c).arrAt 7 cfg1.N = G V c :=
  (dat1 (F := Ideal) V c).arrAt_eq_of_cover 7 _ (fun t _ => flushed_eq V c t) (covered)

end Region

end Cert.GruBlocks

end
-- ==== Proof.Bridge.lean ====
/-
  The two programs compute one function.

  The kernel's result buffer holds what the node-update region leaves: every node's gated update from the arrays that
  region starts from — the node features and states as launched, the averaged messages, the transposed update weights
  and the bias rows. The averaged messages are the host's averaging of the message region's output, which is the
  specification's messages of the gathered edge features, the transposed message weights and the bias row; the
  reference's messages are the same specification of the same stages, so the averaged messages agree, and the
  reference's last stage is the same gated update of every node. Hence the kernel's result is the reference's result
  term of the same arguments.
-/
import proofs.«125218_j29214367547980_1_alg».proof.Proof.KernelRun
import proofs.«125218_j29214367547980_1_alg».proof.Proof.HostStages
import proofs.«125218_j29214367547980_1_alg».proof.Proof.MsgRef
import proofs.«125218_j29214367547980_1_alg».proof.Proof.MsgBlocks
import proofs.«125218_j29214367547980_1_alg».proof.Proof.GruRef
import proofs.«125218_j29214367547980_1_alg».proof.Proof.GruBlocks

set_option maxRecDepth 16384
set_option maxHeartbeats 1000000

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.Read

/-- The reference's result, as every node's gated update from its own stages. -/
theorem ref_value (x0 x1 : (⟨S50000x128, .f32⟩ : BufTy).Contents (Elt Ideal)) (x2 x3 : (⟨S800000, .i32⟩ : BufTy).Contents (Elt Ideal)) (x4 : (⟨S128x256, .f32⟩ : BufTy).Contents (Elt Ideal)) (x5 : (⟨S128, .f32⟩ : BufTy).Contents (Elt Ideal)) (x6 : (⟨S384x256, .f32⟩ : BufTy).Contents (Elt Ideal)) (x7 : (⟨S384x128, .f32⟩ : BufTy).Contents (Elt Ideal)) (x8 x9 : (⟨S384, .f32⟩ : BufTy).Contents (Elt Ideal)) :
    val_main_v70 (F := Ideal) x0 x1 x2 x3 x4 x5 x6 x7 x8 x9
      = fun i => GruBlocks.upd x0 x1 (val_main_v31 (F := Ideal) x0 x1 x2 x3 x4 x5) (val_main_v33 (F := Ideal) x6)
          (val_main_v38 (F := Ideal) x7) (val_main_v35 (F := Ideal) x8) (val_main_v40 (F := Ideal) x9) (i 0) (i 1) := by
  funext i
  obtain ⟨n, j, rfl⟩ : ∃ (n : Fin 50000) (j : Fin 128), i = ix2 n j := ⟨i 0, i 1, eq_ix2 i⟩
  rw [GruRef.gru_ref]
  rfl

variable (m : (ℓ : Loc nD τ sig) → Buf (Elt Ideal) ℓ) (ρ : Dev nD → PrngReg) (c : Dev nD)

/-- The message region's output array is the reference's message stage of the same arguments. -/
theorem msg_value : W2 m ρ c (Proc.devRef .tc main_v17)
    = val_main_v19 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  rw [HostStages.msg_out_eq, MsgValue.msg_array (V1 m ρ) c, HostStages.feat_eq, HostStages.wmsg_eq, HostStages.bmsg_eq,
    ← MsgRef.msg_ref]

/-- The kernel's result buffer ends at the reference's result term of the same arguments. -/
theorem kernel_value : W4 m ρ c (Proc.devRef .tc main_v34) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [KernelRun.result_eq, GruBlocks.gru_array (V3 m ρ) c, ref_value]
  unfold GruBlocks.G
  rw [HostStages.x_eq, HostStages.h_eq, HostStages.avg_eq m ρ c (msg_value m ρ c), HostStages.wih_eq, HostStages.whh_eq,
    HostStages.bih_eq, HostStages.bhh_eq]

end Cert.Bridge

end
-- ==== Proof.lean ====
/-
  The claim: a message-passing layer with a gated update, written as two dense kernels around the host's gather and
  scatter, equals its reference on the extended reals.

  Both programs gather each edge's source rows of the node features and node states, project them to a message
  (a 256-to-128 linear map plus a bias), average the messages over each node's incoming edges, and update each node by a
  gated recurrent unit whose input is the node's features joined with its averaged message. The kernel does the two
  dense stages in row blocks (4000 edges, then 1000 nodes, per grid point) with products accumulated from zero in a
  narrower float format; the reference does each with one host product. On the extended reals a change of format is the
  identity and a block of rows of a product is the same sums, so the two message arrays agree entry by entry; the
  averaging is the same host operations on both sides; and the update agrees entry by entry because the logistic
  function is 1 / (1 + e^(−x)) on both sides. No law that needs finiteness is used, so the precondition is not opened.

  The three frames are the generated ones (the reference's is its run with the result dropped); the idealization
  rewrote nothing, so its conjunct is trivial; the value conjunct names both results by the reference's result term of
  the kernel's arguments.
-/
import proofs.«125218_j29214367547980_1_alg».proof.Defs
import proofs.«125218_j29214367547980_1_alg».proof.Proof.Gen.Kernel
import proofs.«125218_j29214367547980_1_alg».proof.Proof.Gen.Kernel.Skeleton
import proofs.«125218_j29214367547980_1_alg».proof.Proof.Gen.Kernel.Launch
import proofs.«125218_j29214367547980_1_alg».proof.Proof.Gen.Kernel.Points
import proofs.«125218_j29214367547980_1_alg».proof.Proof.Gen.Kernel.Frame
import proofs.«125218_j29214367547980_1_alg».proof.Proof.Gen.KernelIdeal
import proofs.«125218_j29214367547980_1_alg».proof.Proof.Gen.KernelIdeal.Skeleton
import proofs.«125218_j29214367547980_1_alg».proof.Proof.Gen.KernelIdeal.Launch
import proofs.«125218_j29214367547980_1_alg».proof.Proof.Gen.KernelIdeal.Points
import proofs.«125218_j29214367547980_1_alg».proof.Proof.Gen.KernelIdeal.Frame
import proofs.«125218_j29214367547980_1_alg».proof.Proof.Gen.ReferenceIdeal
import proofs.«125218_j29214367547980_1_alg».proof.Proof.Gen.ReferenceIdeal.Run
import proofs.«125218_j29214367547980_1_alg».proof.Proof.Gen.ReferenceIdeal.Read
import proofs.«125218_j29214367547980_1_alg».proof.Proof.Gen.Pre_finite_inputs
import proofs.«125218_j29214367547980_1_alg».proof.Proof.Bridge
import Idealize.ShloMosaic.Adequacy
import Idealize.ShloMosaic.Init

set_option maxRecDepth 16384
set_option maxHeartbeats 1000000

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's result term of those arguments. -/
theorem algebraic : Cert.algebraic_KernelIdeal_ReferenceIdeal := by
  intro m ρ m' ρ' _ hagree
  refine ⟨fun c => Cert.ReferenceIdeal.Read.val_main_v70 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Bridge.kernel_value m ρ c), (h c).2⟩)
      (Cert.KernelRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v70_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
